-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x4 : Shape := ⟨2, ![8388608, 4]⟩
abbrev S4x8388608 : Shape := ⟨2, ![4, 8388608]⟩
abbrev S1x8388608 : Shape := ⟨2, ![1, 8388608]⟩
abbrev S4x65536 : Shape := ⟨2, ![4, 65536]⟩
abbrev S1x65536 : Shape := ⟨2, ![1, 65536]⟩
abbrev S8388608x1 : Shape := ⟨2, ![8388608, 1]⟩

abbrev nBuf : Space → Nat
  | .hbm => 8
  | .vmem => 8
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S4x8388608, .f32⟩
  | .hbm, ⟨3, _⟩ => ⟨S4x8388608, .f32⟩
  | .hbm, ⟨4, _⟩ => ⟨S4x8388608, .f32⟩
  | .hbm, ⟨5, _⟩ => ⟨S1x8388608, .f32⟩
  | .hbm, ⟨6, _⟩ => ⟨S8388608x4, .f32⟩
  | .hbm, ⟨7, _⟩ => ⟨S8388608x1, .f32⟩
  | .local _ .vmem, ⟨0, _⟩ => ⟨S4x65536, .f32⟩
  | .local _ .vmem, ⟨1, _⟩ => ⟨S4x65536, .f32⟩
  | .local _ .vmem, ⟨2, _⟩ => ⟨S4x65536, .f32⟩
  | .local _ .vmem, ⟨3, _⟩ => ⟨S4x65536, .f32⟩
  | .local _ .vmem, ⟨4, _⟩ => ⟨S4x65536, .f32⟩
  | .local _ .vmem, ⟨5, _⟩ => ⟨S4x65536, .f32⟩
  | .local _ .vmem, ⟨6, _⟩ => ⟨S1x65536, .f32⟩
  | .local _ .vmem, ⟨7, _⟩ => ⟨S1x65536, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8388608x4_S4x8388608_1_0 : S8388608x4.Transposes [1, 0] S4x8388608
  inb_S4x65536_S1x65536_3_0 : ∀ a, (![3, 0] : Fin 2 → Nat) a + S1x65536.size a ≤ S4x65536.size a
  h_S1x65536 : 0 < S1x65536.numel
  shapeCasts_S1x65536_S1x65536 : S1x65536.ShapeCasts S1x65536
  inb_S4x65536_S1x65536_2_0 : ∀ a, (![2, 0] : Fin 2 → Nat) a + S1x65536.size a ≤ S4x65536.size a
  inb_S4x65536_S1x65536_1_0 : ∀ a, (![1, 0] : Fin 2 → Nat) a + S1x65536.size a ≤ S4x65536.size a
  inb_S4x65536_S1x65536_0_0 : ∀ a, (![0, 0] : Fin 2 → Nat) a + S1x65536.size a ≤ S4x65536.size a
  inb_S1x65536_S1x65536_0_0 : ∀ a, (![0, 0] : Fin 2 → Nat) a + S1x65536.size a ≤ S1x65536.size a
  transposes_S4x8388608_S8388608x4_1_0 : S4x8388608.Transposes [1, 0] S8388608x4
  shapeCasts_S1x8388608_S8388608x1 : S1x8388608.ShapeCasts S8388608x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x65536.size a ≤ S4x8388608.size a
  hwx0_0 : ∀ i : grid0.Coords, EltTy.bits .f32 = 32 ∨ (Rect.block (s := S4x8388608) S4x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x65536.size a ≤ S4x8388608.size a
  hwx0_1 : ∀ i : grid0.Coords, EltTy.bits .f32 = 32 ∨ (Rect.block (s := S4x8388608) S4x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x65536.size a ≤ S4x8388608.size a
  hwx0_2 : ∀ i : grid0.Coords, EltTy.bits .f32 = 32 ∨ (Rect.block (s := S4x8388608) S4x65536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x65536.size a ≤ S1x8388608.size a
  hwx0_3 : ∀ i : grid0.Coords, EltTy.bits .f32 = 32 ∨ (Rect.block (s := S1x8388608) S1x65536.size (cc0_transform_3 i) (hinb0_3 i)).WholeWords (EltTy.packing .f32)

variable [Facts₀]

abbrev win0_0 : Pipeline.Window sig grid0 :=
  Pipeline.Window.ofSpec (Memref.whole main_v0) S4x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x65536.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x65536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608x1 : Shape := ⟨2, ![8388608, 1]⟩
abbrev S_ : Shape := ⟨0, ![]⟩

abbrev nBuf : Space → Nat
  | .hbm => 110
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x1, .f32⟩
  | .hbm, ⟨3, _⟩ => ⟨S_, .f32⟩
  | .hbm, ⟨4, _⟩ => ⟨S8388608x1, .f32⟩
  | .hbm, ⟨5, _⟩ => ⟨S8388608x1, .f32⟩
  | .hbm, ⟨6, _⟩ => ⟨S8388608x1, .f32⟩
  | .hbm, ⟨7, _⟩ => ⟨S8388608x1, .f32⟩
  | .hbm, ⟨8, _⟩ => ⟨S_, .f32⟩
  | .hbm, ⟨9, _⟩ => ⟨S8388608x1, .f32⟩
  | .hbm, ⟨10, _⟩ => ⟨S8388608x1, .f32⟩
  | .hbm, ⟨11, _⟩ => ⟨S8388608x1, .f32⟩
  | .hbm, ⟨12, _⟩ => ⟨S8388608x1, .f32⟩
  | .hbm, ⟨13, _⟩ => ⟨S8388608x1, .f32⟩
  | .hbm, ⟨14, _⟩ => ⟨S_, .f32⟩
  | .hbm, ⟨15, _⟩ => ⟨S8388608x1, .f32⟩
  | .hbm, ⟨16, _⟩ => ⟨S8388608x1, .f32⟩
  | .hbm, ⟨17, _⟩ => ⟨S8388608x1, .f32⟩
  | .hbm, ⟨18, _⟩ => ⟨S8388608x1, .f32⟩
  | .hbm, ⟨19, _⟩ => ⟨S_, .f32⟩
  | .hbm, ⟨20, _⟩ => ⟨S8388608x1, .f32⟩
  | .hbm, ⟨21, _⟩ => ⟨S8388608x1, .f32⟩
  | .hbm, ⟨22, _⟩ => ⟨S8388608x1, .f32⟩
  | .hbm, ⟨23, _⟩ => ⟨S8388608x1, .f32⟩
  | .hbm, ⟨24, _⟩ => ⟨S8388608x1, .f32⟩
  | .hbm, ⟨25, _⟩ => ⟨S8388608x1, .f32⟩
  | .hbm, ⟨26, _⟩ => ⟨S8388608x1, .f32⟩
  | .hbm, ⟨27, _⟩ => ⟨S8388608x1, .f32⟩
  | .hbm, ⟨28, _⟩ => ⟨S8388608x1, .f32⟩
  | .hbm, ⟨29, _⟩ => ⟨S8388608x1, .f32⟩
  | .hbm, ⟨30, _⟩ => ⟨S8388608x1, .f32⟩
  | .hbm, ⟨31, _⟩ => ⟨S8388608x1, .f32⟩
  | .hbm, ⟨32, _⟩ => ⟨S8388608x1, .f32⟩
  | .hbm, ⟨33, _⟩ => ⟨S8388608x1, .f32⟩
  | .hbm, ⟨34, _⟩ => ⟨S_, .f32⟩
  | .hbm, ⟨35, _⟩ => ⟨S8388608x1, .f32⟩
  | .hbm, ⟨36, _⟩ => ⟨S8388608x1, .f32⟩
  | .hbm, ⟨37, _⟩ => ⟨S8388608x1, .f32⟩
  | .hbm, ⟨38, _⟩ => ⟨S8388608x1, .f32⟩
  | .hbm, ⟨39, _⟩ => ⟨S8388608x1, .f32⟩
  | .hbm, ⟨40, _⟩ => ⟨S_, .f32⟩
  | .hbm, ⟨41, _⟩ => ⟨S8388608x1, .f32⟩
  | .hbm, ⟨42, _⟩ => ⟨S8388608x1, .f32⟩
  | .hbm, ⟨43, _⟩ => ⟨S8388608x1, .f32⟩
  | .hbm, ⟨44, _⟩ => ⟨S8388608x1, .f32⟩
  | .hbm, ⟨45, _⟩ => ⟨S_, .f32⟩
  | .hbm, ⟨46, _⟩ => ⟨S8388608x1, .f32⟩
  | .hbm, ⟨47, _⟩ => ⟨S8388608x1, .f32⟩
  | .hbm, ⟨48, _⟩ => ⟨S8388608x1, .f32⟩
  | .hbm, ⟨49, _⟩ => ⟨S8388608x1, .f32⟩
  | .hbm, ⟨50, _⟩ => ⟨S8388608x1, .f32⟩
  | .hbm, ⟨51, _⟩ => ⟨S8388608x1, .f32⟩
  | .hbm, ⟨52, _⟩ => ⟨S8388608x1, .f32⟩
  | .hbm, ⟨53, _⟩ => ⟨S8388608x1, .f32⟩
  | .hbm, ⟨54, _⟩ => ⟨S8388608x1, .f32⟩
  | .hbm, ⟨55, _⟩ => ⟨S8388608x1, .f32⟩
  | .hbm, ⟨56, _⟩ => ⟨S8388608x1, .f32⟩
  | .hbm, ⟨57, _⟩ => ⟨S8388608x1, .f32⟩
  | .hbm, ⟨58, _⟩ => ⟨S8388608x1, .f32⟩
  | .hbm, ⟨59, _⟩ => ⟨S8388608x1, .f32⟩
  | .hbm, ⟨60, _⟩ => ⟨S_, .f32⟩
  | .hbm, ⟨61, _⟩ => ⟨S8388608x1, .f32⟩
  | .hbm, ⟨62, _⟩ => ⟨S8388608x1, .f32⟩
  | .hbm, ⟨63, _⟩ => ⟨S8388608x1, .f32⟩
  | .hbm, ⟨64, _⟩ => ⟨S8388608x1, .f32⟩
  | .hbm, ⟨65, _⟩ => ⟨S8388608x1, .f32⟩
  | .hbm, ⟨66, _⟩ => ⟨S_, .f32⟩
  | .hbm, ⟨67, _⟩ => ⟨S8388608x1, .f32⟩
  | .hbm, ⟨68, _⟩ => ⟨S8388608x1, .f32⟩
  | .hbm, ⟨69, _⟩ => ⟨S8388608x1, .f32⟩
  | .hbm, ⟨70, _⟩ => ⟨S8388608x1, .f32⟩
  | .hbm, ⟨71, _⟩ => ⟨S_, .f32⟩
  | .hbm, ⟨72, _⟩ => ⟨S8388608x1, .f32⟩
  | .hbm, ⟨73, _⟩ => ⟨S8388608x1, .f32⟩
  | .hbm, ⟨74, _⟩ => ⟨S8388608x1, .f32⟩
  | .hbm, ⟨75, _⟩ => ⟨S8388608x1, .f32⟩
  | .hbm, ⟨76, _⟩ => ⟨S8388608x1, .f32⟩
  | .hbm, ⟨77, _⟩ => ⟨S8388608x1, .f32⟩
  | .hbm, ⟨78, _⟩ => ⟨S8388608x1, .f32⟩
  | .hbm, ⟨79, _⟩ => ⟨S8388608x1, .f32⟩
  | .hbm, ⟨80, _⟩ => ⟨S8388608x1, .f32⟩
  | .hbm, ⟨81, _⟩ => ⟨S8388608x1, .f32⟩
  | .hbm, ⟨82, _⟩ => ⟨S8388608x1, .f32⟩
  | .hbm, ⟨83, _⟩ => ⟨S8388608x1, .f32⟩
  | .hbm, ⟨84, _⟩ => ⟨S8388608x1, .f32⟩
  | .hbm, ⟨85, _⟩ => ⟨S8388608x1, .f32⟩
  | .hbm, ⟨86, _⟩ => ⟨S_, .f32⟩
  | .hbm, ⟨87, _⟩ => ⟨S8388608x1, .f32⟩
  | .hbm, ⟨88, _⟩ => ⟨S8388608x1, .f32⟩
  | .hbm, ⟨89, _⟩ => ⟨S8388608x1, .f32⟩
  | .hbm, ⟨90, _⟩ => ⟨S8388608x1, .f32⟩
  | .hbm, ⟨91, _⟩ => ⟨S8388608x1, .f32⟩
  | .hbm, ⟨92, _⟩ => ⟨S_, .f32⟩
  | .hbm, ⟨93, _⟩ => ⟨S8388608x1, .f32⟩
  | .hbm, ⟨94, _⟩ => ⟨S8388608x1, .f32⟩
  | .hbm, ⟨95, _⟩ => ⟨S8388608x1, .f32⟩
  | .hbm, ⟨96, _⟩ => ⟨S8388608x1, .f32⟩
  | .hbm, ⟨97, _⟩ => ⟨S_, .f32⟩
  | .hbm, ⟨98, _⟩ => ⟨S8388608x1, .f32⟩
  | .hbm, ⟨99, _⟩ => ⟨S8388608x1, .f32⟩
  | .hbm, ⟨100, _⟩ => ⟨S8388608x1, .f32⟩
  | .hbm, ⟨101, _⟩ => ⟨S8388608x1, .f32⟩
  | .hbm, ⟨102, _⟩ => ⟨S8388608x1, .f32⟩
  | .hbm, ⟨103, _⟩ => ⟨S8388608x1, .f32⟩
  | .hbm, ⟨104, _⟩ => ⟨S8388608x1, .f32⟩
  | .hbm, ⟨105, _⟩ => ⟨S8388608x1, .f32⟩
  | .hbm, ⟨106, _⟩ => ⟨S8388608x1, .f32⟩
  | .hbm, ⟨107, _⟩ => ⟨S8388608x1, .f32⟩
  | .hbm, ⟨108, _⟩ => ⟨S8388608x1, .f32⟩
  | .hbm, ⟨109, _⟩ => ⟨S8388608x4, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_7 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_8 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_9 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_10 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_11 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩

abbrev nD : Nat := 1
abbrev τ : Topo := Topo.v7x

variable {F : FTy → Type} [FloatOps F]

class Facts₀ : Prop where
  slices_S8388608x4_S8388608x1_0_0 : S8388608x4.Slices ![0, 0] S8388608x1
  bcast_S_S8388608x1 : S_.BroadcastsInDim S8388608x1 (![] : Fin 0 → Fin S8388608x1.rank)
  slices_S8388608x4_S8388608x1_0_3 : S8388608x4.Slices ![0, 3] S8388608x1
  slices_S8388608x4_S8388608x1_0_2 : S8388608x4.Slices ![0, 2] S8388608x1
  slices_S8388608x4_S8388608x1_0_1 : S8388608x4.Slices ![0, 1] S8388608x1
  concatenates_S8388608x1_S8388608x1_S8388608x1_S8388608x1_S8388608x4_d1 : Shape.Concatenates [S8388608x1, S8388608x1, S8388608x1, S8388608x1] S8388608x4 1

variable [Facts₀]

class Facts : Prop extends Facts₀ where

variable [Facts]
-- ==== Proof.Spec.lean ====
/-
  The four-bit ripple-borrow subtractor, as arithmetic on the extended reals.

  A lane is a pair of four-bit words `a`, `b` (bit 3 the least significant). The gates are the polynomial forms of
  the Boolean connectives: `xor x y = x + y - 2·x·y`, `or x y = x + y - x·y`, `and x y = x·y`, `not x = 1 - x`. Bit `k`
  of the difference is `xor (xor a_k b_k) c_k` with `c_k` the borrow entering bit `k`, and the borrow leaving it is
  `or (or (and (not a_k) b_k) (and (not a_k) c_k)) (and b_k c_k)`; the borrow entering bit 3 is zero, and the borrow
  leaving bit 0 is the subtractor's second result. Nothing here assumes the inputs are bits: the formulas are read on
  every pair of extended reals, in the grouping written, so no law of arithmetic is used to compare two programs that
  both spell them this way.

  The two results of a batch of lanes laid as the rows of an `[N, 4]` array: the differences as an `[N, 4]` array, the
  final borrows as an `[N, 1]` column; and the same two with lanes along the columns (`[4, N]` and `[1, N]`).
-/
import Idealize.ShloMosaic.PureOps.Ideal
import Idealize.ShloMosaic.Lib.ValueIdx

noncomputable section

namespace Cert.Subtractor

open Idealize.ShloMosaic Idealize.ShloMosaic.ValueIdx

/-- The three float literals of the gates, as the extended reals their f32 words denote. -/
def zeroE : EReal := Ideal.ofBits .f32 0x00000000#32
def oneE : EReal := Ideal.ofBits .f32 0x3F800000#32
def twoE : EReal := Ideal.ofBits .f32 0x40000000#32

/-- `x + y - 2·x·y`, the product grouped `(2·x)·y`. -/
def gxor (x y : EReal) : EReal := x + y - twoE * x * y
/-- `x + y - x·y`. -/
def gor (x y : EReal) : EReal := x + y - x * y

/-- One difference bit from the two operand bits and the borrow coming in. -/
def diffBit (a b c : EReal) : EReal := gxor (gxor a b) c
/-- The borrow going out of a bit position. -/
def borrowBit (a b c : EReal) : EReal := gor (gor ((oneE - a) * b) ((oneE - a) * c)) (b * c)

/-- The borrow entering bit 2 (leaving bit 3, which no borrow enters). -/
def borrow2 (a b : Fin 4 → EReal) : EReal := borrowBit (a 3) (b 3) zeroE
/-- The borrow entering bit 1. -/
def borrow1 (a b : Fin 4 → EReal) : EReal := borrowBit (a 2) (b 2) (borrow2 a b)
/-- The borrow entering bit 0. -/
def borrow0 (a b : Fin 4 → EReal) : EReal := borrowBit (a 1) (b 1) (borrow1 a b)
/-- The borrow leaving bit 0: the lane's final borrow. -/
def borrowOut (a b : Fin 4 → EReal) : EReal := borrowBit (a 0) (b 0) (borrow0 a b)

/-- The four difference bits of a lane. -/
def diff0 (a b : Fin 4 → EReal) : EReal := diffBit (a 0) (b 0) (borrow0 a b)
def diff1 (a b : Fin 4 → EReal) : EReal := diffBit (a 1) (b 1) (borrow1 a b)
def diff2 (a b : Fin 4 → EReal) : EReal := diffBit (a 2) (b 2) (borrow2 a b)
def diff3 (a b : Fin 4 → EReal) : EReal := diffBit (a 3) (b 3) zeroE
/-- Bit `k` of a lane's difference. -/
def diffAt (a b : Fin 4 → EReal) (k : Fin 4) : EReal :=
  match k with
  | ⟨0, _⟩ => diff0 a b
  | ⟨1, _⟩ => diff1 a b
  | ⟨2, _⟩ => diff2 a b
  | ⟨_ + 3, _⟩ => diff3 a b

/-- Lane `n` of an `[N, 4]` array: its row. -/
def lane (A : (⟨2, ![8388608, 4]⟩ : Shape).Idx → EReal) (n : Fin 8388608) : Fin 4 → EReal := fun k => A (ix2 n k)

/-- The differences of every lane, lanes along the rows. -/
def diffRows (A B : (⟨2, ![8388608, 4]⟩ : Shape).Idx → EReal) : (⟨2, ![8388608, 4]⟩ : Shape).Idx → EReal :=
  fun i => diffAt (lane A (i 0)) (lane B (i 0)) (i 1)
/-- The final borrow of every lane, as a column. -/
def borrowCol (A B : (⟨2, ![8388608, 4]⟩ : Shape).Idx → EReal) : (⟨2, ![8388608, 1]⟩ : Shape).Idx → EReal :=
  fun i => borrowOut (lane A (i 0)) (lane B (i 0))
/-- The differences with lanes along the columns: the transpose of `diffRows`. -/
def diffCols (A B : (⟨2, ![8388608, 4]⟩ : Shape).Idx → EReal) : (⟨2, ![4, 8388608]⟩ : Shape).Idx → EReal :=
  fun i => diffAt (lane A (i 1)) (lane B (i 1)) (i 0)
/-- The final borrows as a row. -/
def borrowRow (A B : (⟨2, ![8388608, 4]⟩ : Shape).Idx → EReal) : (⟨2, ![1, 8388608]⟩ : Shape).Idx → EReal :=
  fun i => borrowOut (lane A (i 1)) (lane B (i 1))

theorem diffRows_apply (A B : (⟨2, ![8388608, 4]⟩ : Shape).Idx → EReal) (n : Fin 8388608) (k : Fin 4) :
    diffRows A B (ix2 n k) = diffAt (lane A n) (lane B n) k := rfl
theorem borrowCol_apply (A B : (⟨2, ![8388608, 4]⟩ : Shape).Idx → EReal) (n : Fin 8388608) (z : Fin 1) :
    borrowCol A B (ix2 n z) = borrowOut (lane A n) (lane B n) := rfl
theorem diffCols_apply (A B : (⟨2, ![8388608, 4]⟩ : Shape).Idx → EReal) (k : Fin 4) (n : Fin 8388608) :
    diffCols A B (ix2 k n) = diffAt (lane A n) (lane B n) k := rfl
theorem borrowRow_apply (A B : (⟨2, ![8388608, 4]⟩ : Shape).Idx → EReal) (z : Fin 1) (n : Fin 8388608) :
    borrowRow A B (ix2 z n) = borrowOut (lane A n) (lane B n) := rfl

end Cert.Subtractor

end
-- ==== Proof.KernelBlock.lean ====
/-
  One block of the kernel, read entry by entry.

  At a grid point the body sees two `[4, 65536]` blocks `x0`, `x1` (bit `k` of lane `l` at row `k`, column `l`) and
  stores four rows of differences, bit 3 first, and one row of borrows. Each stored row is, entry by entry, the gate
  formula of the rows it read: row `k` of the difference block at column `l` is bit `k` of the difference of the lane
  whose bits are column `l` of `x0` and `x1`, and the borrow row at column `l` is that lane's final borrow. The four
  row stores tile the block, so the block after the body is that one function of its index.
-/
import proofs.«129038_j43860206027272_2_alg».proof.Proof.Gen.KernelIdeal.Frame
import proofs.«129038_j43860206027272_2_alg».proof.Proof.Spec
import Idealize.ShloMosaic.Lib.Pipeline.Value
import Idealize.ShloMosaic.Lib.ValueIdx

noncomputable section

namespace Cert.KernelIdeal.Block

open Idealize.ShloMosaic Idealize.ShloMosaic.ValueIdx Idealize.ShloMosaic.Pipeline
open Cert.KernelIdeal Cert.KernelIdeal.Gen Cert.Subtractor

/-! ## The payloads, pointwise -/

/-- A cast of a row to its own shape is the row. -/
theorem pay4_eq (v : Vec Ideal S1x65536 .f32) : k0_pay4 v = v := shapeCast_self _ _
theorem pay5_eq (v : Vec Ideal S1x65536 .f32) : k0_pay5 v = v := shapeCast_self _ _
theorem pay8_eq (v : Vec Ideal S1x65536 .f32) : k0_pay8 v = v := shapeCast_self _ _
theorem pay9_eq (v : Vec Ideal S1x65536 .f32) : k0_pay9 v = v := shapeCast_self _ _
theorem pay12_eq (v : Vec Ideal S1x65536 .f32) : k0_pay12 v = v := shapeCast_self _ _
theorem pay13_eq (v : Vec Ideal S1x65536 .f32) : k0_pay13 v = v := shapeCast_self _ _
theorem pay16_eq (v : Vec Ideal S1x65536 .f32) : k0_pay16 v = v := shapeCast_self _ _
theorem pay17_eq (v : Vec Ideal S1x65536 .f32) : k0_pay17 v = v := shapeCast_self _ _

/-- Bit 3's difference: no borrow comes in. -/
theorem pay6_eq (a b : Vec Ideal S1x65536 .f32) :
    k0_pay6 a b = fun i => diffBit (a i) (b i) zeroE := by
  unfold k0_pay6; rw [pay4_eq, pay5_eq]; rfl
/-- The borrow out of bit 3. -/
theorem pay7_eq (a b : Vec Ideal S1x65536 .f32) :
    k0_pay7 a b = fun i => borrowBit (a i) (b i) zeroE := by
  unfold k0_pay7; rw [pay4_eq, pay5_eq]; rfl
/-- Bit 2's difference, over the borrow out of bit 3. -/
theorem pay10_eq (a3 b3 a2 b2 : Vec Ideal S1x65536 .f32) :
    k0_pay10 a3 b3 a2 b2 = fun i => diffBit (a2 i) (b2 i) (borrowBit (a3 i) (b3 i) zeroE) := by
  unfold k0_pay10; rw [pay8_eq, pay9_eq, pay7_eq]; rfl
/-- The borrow out of a middle bit from the borrow coming in. -/
theorem pay11_eq (c a b : Vec Ideal S1x65536 .f32) :
    k0_pay11 (F := Ideal) c a b (Scalar.ofBits .f32 0x3F800000#32) = fun i => borrowBit (a i) (b i) (c i) := by
  unfold k0_pay11; rfl
/-- Bit 1's difference. -/
theorem pay14_eq (c a2 b2 a1 b1 : Vec Ideal S1x65536 .f32) :
    k0_pay14 (F := Ideal) c a2 b2 (Scalar.ofBits .f32 0x3F800000#32) a1 b1
      = fun i => diffBit (a1 i) (b1 i) (borrowBit (a2 i) (b2 i) (c i)) := by
  unfold k0_pay14; rw [pay12_eq, pay13_eq, pay11_eq]; rfl
/-- The borrow out of bit 1. -/
theorem pay15_eq (c a2 b2 a1 b1 : Vec Ideal S1x65536 .f32) :
    k0_pay15 (F := Ideal) c a2 b2 (Scalar.ofBits .f32 0x3F800000#32) a1 b1
      = fun i => borrowBit (a1 i) (b1 i) (borrowBit (a2 i) (b2 i) (c i)) := by
  unfold k0_pay15; rw [pay12_eq, pay13_eq, pay11_eq]; rfl
/-- The sum the last bit's `xor` starts from. -/
theorem pay18_eq (a b : Vec Ideal S1x65536 .f32) : k0_pay18 (F := Ideal) a b = fun i => a i + b i := by
  unfold k0_pay18; rw [pay16_eq, pay17_eq]; rfl
/-- Bit 0's difference. -/
theorem pay1_eq (c a b : Vec Ideal S1x65536 .f32) :
    k0_pay1 (F := Ideal) c a b (fun i => a i + b i) = fun i => diffBit (a i) (b i) (c i) := by
  unfold k0_pay1; rfl
/-- The final borrow. -/
theorem pay2_eq (c a b : Vec Ideal S1x65536 .f32) :
    k0_pay2 (F := Ideal) c a b = fun i => borrowBit (a i) (b i) (c i) := by
  unfold k0_pay2; rfl

/-! ## Row `k` of a block -/

/-- The one-row rectangle at row `o` sends column `l` of the row to `(o, l)` of the block. -/
theorem row_idx (o : Nat) (inb : ∀ a, (![o, 0] : Fin 2 → Nat) a + S1x65536.size a ≤ S4x65536.size a)
    (k : Fin 4) (hk : k.val = o) (z : Fin 1) (l : Fin 65536) :
    (Rect.unit (s := S4x65536) ![o, 0] S1x65536.size inb).idx (ix2 z l) = ix2 k l := by
  funext a; apply Fin.ext
  match a with
  | ⟨0, _⟩ => show o + 1 * z.val = k.val; have := z.isLt; omega
  | ⟨1, _⟩ => show 0 + 1 * l.val = l.val; omega

/-- The borrow row's rectangle is the whole row. -/
theorem row1_idx (inb : ∀ a, (![0, 0] : Fin 2 → Nat) a + S1x65536.size a ≤ S1x65536.size a) (z : Fin 1) (l : Fin 65536) :
    (Rect.unit (s := S1x65536) ![0, 0] S1x65536.size inb).idx (ix2 z l) = ix2 z l := by
  funext a; apply Fin.ext
  match a with
  | ⟨0, _⟩ => show 0 + 1 * z.val = z.val; omega
  | ⟨1, _⟩ => show 0 + 1 * l.val = l.val; omega

/-- A load of row `o` of a block reads, at column `l`, the block at `(o, l)`. -/
theorem ld_row (x : Vec Ideal S4x65536 .f32) (o : Nat)
    (inb : ∀ a, (![o, 0] : Fin 2 → Nat) a + S1x65536.size a ≤ S4x65536.size a) (k : Fin 4) (hk : k.val = o)
    (z : Fin 1) (l : Fin 65536) :
    View.ld x (Rect.unit (s := S4x65536) ![o, 0] S1x65536.size inb) (ix2 z l) = x (ix2 k l) :=
  congrArg x (row_idx o inb k hk z l)

/-- The lane at column `l` of a pair of blocks. -/
def colLane (x : Vec Ideal S4x65536 .f32) (l : Fin 65536) : Fin 4 → EReal := fun k => x (ix2 k l)

/-! ## The two blocks after the body -/

/-- The difference block as one function of its index. -/
def diffBlock (x0 x1 : Vec Ideal S4x65536 .f32) : S4x65536.Idx → EReal :=
  fun y => diffAt (colLane x0 (y 1)) (colLane x1 (y 1)) (y 0)

set_option maxHeartbeats 1000000 in
/-- After the body the difference block holds, at `(k, l)`, bit `k` of the difference of the lane at column `l`. -/
theorem out2_eq (x0 x1 : Vec Ideal S4x65536 .f32) : out0_2 x0 x1 = diffBlock x0 x1 := by
  funext y
  unfold out0_2
  refine View.canon_apply_of_pieces (Val := Elt Ideal) (diffBlock x0 x1) _ ?_ y (cover0_2 (F := Ideal) _ _ _ _ y)
  intro p hp
  simp only [List.mem_cons, List.mem_nil_iff, or_false] at hp
  rcases hp with rfl | rfl | rfl | rfl
  · -- row 0: bit 0
    intro x
    obtain ⟨z, l, rfl⟩ : ∃ (z : Fin 1) (l : Fin 65536), x = (ix2 z l : S1x65536.Idx) := ⟨x 0, x 1, eq_ix2 (n0 := 1) (n1 := 65536) x⟩
    show k0_pay1 (F := Ideal) _ _ _ _ (ix2 z l) = diffBlock x0 x1 (r0_3.idx (ix2 z l))
    rw [row_idx 0 _ (0 : Fin 4) rfl z l, pay18_eq, pay16_eq, pay17_eq, pay1_eq, pay15_eq, pay7_eq, pay8_eq, pay9_eq]
    show diffBit _ _ _ = diffBit _ _ _
    simp only [ld_row x0 0 _ (0 : Fin 4) rfl z l, ld_row x1 0 _ (0 : Fin 4) rfl z l,
      ld_row x0 1 _ (1 : Fin 4) rfl z l, ld_row x1 1 _ (1 : Fin 4) rfl z l,
      ld_row x0 2 _ (2 : Fin 4) rfl z l, ld_row x1 2 _ (2 : Fin 4) rfl z l,
      ld_row x0 3 _ (3 : Fin 4) rfl z l, ld_row x1 3 _ (3 : Fin 4) rfl z l]
    rfl
  · -- row 1: bit 1
    intro x
    obtain ⟨z, l, rfl⟩ : ∃ (z : Fin 1) (l : Fin 65536), x = (ix2 z l : S1x65536.Idx) := ⟨x 0, x 1, eq_ix2 (n0 := 1) (n1 := 65536) x⟩
    show k0_pay14 (F := Ideal) _ _ _ _ _ _ (ix2 z l) = diffBlock x0 x1 (r0_2.idx (ix2 z l))
    rw [row_idx 1 _ (1 : Fin 4) rfl z l, pay14_eq, pay7_eq, pay8_eq, pay9_eq]
    show diffBit _ _ _ = diffBit _ _ _
    simp only [ld_row x0 1 _ (1 : Fin 4) rfl z l, ld_row x1 1 _ (1 : Fin 4) rfl z l,
      ld_row x0 2 _ (2 : Fin 4) rfl z l, ld_row x1 2 _ (2 : Fin 4) rfl z l,
      ld_row x0 3 _ (3 : Fin 4) rfl z l, ld_row x1 3 _ (3 : Fin 4) rfl z l]
    rfl
  · -- row 2: bit 2
    intro x
    obtain ⟨z, l, rfl⟩ : ∃ (z : Fin 1) (l : Fin 65536), x = (ix2 z l : S1x65536.Idx) := ⟨x 0, x 1, eq_ix2 (n0 := 1) (n1 := 65536) x⟩
    show k0_pay10 (F := Ideal) _ _ _ _ (ix2 z l) = diffBlock x0 x1 (r0_1.idx (ix2 z l))
    rw [row_idx 2 _ (2 : Fin 4) rfl z l, pay10_eq]
    show diffBit _ _ _ = diffBit _ _ _
    simp only [ld_row x0 2 _ (2 : Fin 4) rfl z l, ld_row x1 2 _ (2 : Fin 4) rfl z l,
      ld_row x0 3 _ (3 : Fin 4) rfl z l, ld_row x1 3 _ (3 : Fin 4) rfl z l]
    rfl
  · -- row 3: bit 3
    intro x
    obtain ⟨z, l, rfl⟩ : ∃ (z : Fin 1) (l : Fin 65536), x = (ix2 z l : S1x65536.Idx) := ⟨x 0, x 1, eq_ix2 (n0 := 1) (n1 := 65536) x⟩
    show k0_pay6 (F := Ideal) _ _ (ix2 z l) = diffBlock x0 x1 (r0_0.idx (ix2 z l))
    rw [row_idx 3 _ (3 : Fin 4) rfl z l, pay6_eq]
    show diffBit _ _ _ = diffBit _ _ _
    simp only [ld_row x0 3 _ (3 : Fin 4) rfl z l, ld_row x1 3 _ (3 : Fin 4) rfl z l]
    rfl

/-- The borrow block as one function of its index. -/
def borrowBlock (x0 x1 : Vec Ideal S4x65536 .f32) : S1x65536.Idx → EReal :=
  fun y => borrowOut (colLane x0 (y 1)) (colLane x1 (y 1))

theorem hz2 : (![0, 0] : Fin 2 → Nat) = fun _ => 0 := funext fun a => by fin_cases a <;> rfl

set_option maxHeartbeats 1000000 in
/-- After the body the borrow row holds, at column `l`, the final borrow of the lane at column `l`. -/
theorem out3_eq (x0 x1 : Vec Ideal S4x65536 .f32) : out0_3 x0 x1 = borrowBlock x0 x1 := by
  unfold out0_3
  rw [View.canon_unit_zero hz2]
  funext y
  obtain ⟨z, l, rfl⟩ : ∃ (z : Fin 1) (l : Fin 65536), y = ix2 z l := ⟨y 0, y 1, eq_ix2 y⟩
  rw [pay16_eq, pay17_eq, pay2_eq, pay15_eq, pay7_eq, pay8_eq, pay9_eq]
  show borrowBit _ _ _ = borrowOut _ _
  simp only [ld_row x0 0 _ (0 : Fin 4) rfl z l, ld_row x1 0 _ (0 : Fin 4) rfl z l,
    ld_row x0 1 _ (1 : Fin 4) rfl z l, ld_row x1 1 _ (1 : Fin 4) rfl z l,
    ld_row x0 2 _ (2 : Fin 4) rfl z l, ld_row x1 2 _ (2 : Fin 4) rfl z l,
    ld_row x0 3 _ (3 : Fin 4) rfl z l, ld_row x1 3 _ (3 : Fin 4) rfl z l]
  rfl

end Cert.KernelIdeal.Block

end
-- ==== Proof.KernelArray.lean ====
/-
  From blocks to whole arrays.

  The host lays each `[N, 4]` argument with lanes along the columns (a transpose), and grid point `t` sees columns
  `65536·t … 65536·t + 65535` of both: entry `(k, l)` of its block is bit `k` of lane `65536·t + l`. So what the point writes
  back — bit `k` of the difference, and the final borrow, of the lane at each column of its block — is block `t` of one
  function of the arguments (`diffCols`, `borrowRow`). The 128 points' blocks tile the `[4, N]` and `[1, N]` arrays (the
  point holding column `n` is `n / 65536`), so after the run the two arrays hold those functions whole.
-/
import proofs.«129038_j43860206027272_2_alg».proof.Proof.KernelBlock
import Idealize.ShloMosaic.Lib.ValueLayout

set_option maxRecDepth 16384

noncomputable section

namespace Cert.KernelIdeal.ArrayValue

open Idealize.ShloMosaic Idealize.ShloMosaic.TcCoe Idealize.ShloMosaic.ValueIdx
open Idealize.ShloMosaic.Pipeline (Dat)
open Idealize.SL.Sem
open Cert.KernelIdeal Cert.KernelIdeal.Gen Cert.KernelIdeal.Block Cert.Subtractor

variable (m : (ℓ : Loc nD τ sig) → Buf (Elt Ideal) ℓ)

/-- The two arguments as launched, as `[N, 4]` arrays of extended reals. -/
abbrev argA (c : Dev nD) : S8388608x4.Idx → EReal := m ((c : Thread nD τ).loc main_arg0)
abbrev argB (c : Dev nD) : S8388608x4.Idx → EReal := m ((c : Thread nD τ).loc main_arg1)

/-! ## The arrays the region finds -/

/-- The first window's array is the first argument transposed. -/
theorem V_v0 (c : Dev nD) :
    (V m c main_v0 : S4x8388608.Idx → EReal)
      = transpose S4x8388608 [1, 0] (argA m c) Facts₀.transposes_S8388608x4_S4x8388608_1_0 := by
  show StableHlo.after hostOps0 (fun b => m (c, b)) (Proc.devRef .tc main_v0) = _
  after_results
/-- The second window's array is the second argument transposed. -/
theorem V_v1 (c : Dev nD) :
    (V m c main_v1 : S4x8388608.Idx → EReal)
      = transpose S4x8388608 [1, 0] (argB m c) Facts₀.transposes_S8388608x4_S4x8388608_1_0 := by
  show StableHlo.after hostOps0 (fun b => m (c, b)) (Proc.devRef .tc main_v1) = _
  after_results

/-- So it holds bit `k` of lane `n` at `(k, n)`. -/
theorem V_v0_apply (c : Dev nD) (k : Fin 4) (n : Fin 8388608) : V m c main_v0 (ix2 k n) = lane (argA m c) n k := by
  rw [V_v0]; exact transpose_ix2_apply _ _ k n
theorem V_v1_apply (c : Dev nD) (k : Fin 4) (n : Fin 8388608) : V m c main_v1 (ix2 k n) = lane (argB m c) n k := by
  rw [V_v1]; exact transpose_ix2_apply _ _ k n

/-! ## Where a block sits -/

/-- The printed index maps over the grid: every window's block at point `t` is block row 0, block column `t`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem t_lt (t : Fin cfg0.N) : t.val < 128 := lt_of_lt_of_eq t.isLt N_0

/-- Column `l` of point `t`'s block is column `65536·t + l` of the array. -/
def colOf (t : Fin cfg0.N) (l : Fin 65536) : Fin 8388608 :=
  ⟨t.val * 65536 + l.val, by have := t_lt t; have := l.isLt; omega⟩

theorem emb0 (t : Fin cfg0.N) (k : Fin 4) (l : Fin 65536) :
    ((cfg0.win 0).blk t).view.emb (ix2 k l) = (ix2 k (colOf t l) : S4x8388608.Idx) := by
  obtain ⟨e0, e1, -⟩ := idx_facts t
  funext a; apply Fin.ext
  match a with
  | ⟨0, _⟩ => show win0_0.index t (0 : Fin 2) * 4 + 1 * k.val = k.val; omega
  | ⟨1, _⟩ => show win0_0.index t (1 : Fin 2) * 65536 + 1 * l.val = t.val * 65536 + l.val; omega
theorem emb1 (t : Fin cfg0.N) (k : Fin 4) (l : Fin 65536) :
    ((cfg0.win 1).blk t).view.emb (ix2 k l) = (ix2 k (colOf t l) : S4x8388608.Idx) := by
  obtain ⟨-, -, e0, e1, -⟩ := idx_facts t
  funext a; apply Fin.ext
  match a with
  | ⟨0, _⟩ => show win0_1.index t (0 : Fin 2) * 4 + 1 * k.val = k.val; omega
  | ⟨1, _⟩ => show win0_1.index t (1 : Fin 2) * 65536 + 1 * l.val = t.val * 65536 + l.val; omega
theorem emb2 (t : Fin cfg0.N) (k : Fin 4) (l : Fin 65536) :
    ((cfg0.win 2).blk t).view.emb (ix2 k l) = (ix2 k (colOf t l) : S4x8388608.Idx) := by
  obtain ⟨-, -, -, -, e0, e1, -⟩ := idx_facts t
  funext a; apply Fin.ext
  match a with
  | ⟨0, _⟩ => show win0_2.index t (0 : Fin 2) * 4 + 1 * k.val = k.val; omega
  | ⟨1, _⟩ => show win0_2.index t (1 : Fin 2) * 65536 + 1 * l.val = t.val * 65536 + l.val; omega
theorem emb3 (t : Fin cfg0.N) (z : Fin 1) (l : Fin 65536) :
    ((cfg0.win 3).blk t).view.emb (ix2 z l) = (ix2 z (colOf t l) : S1x8388608.Idx) := by
  obtain ⟨-, -, -, -, -, -, e0, e1⟩ := idx_facts t
  funext a; apply Fin.ext
  match a with
  | ⟨0, _⟩ => show win0_3.index t (0 : Fin 2) * 1 + 1 * z.val = z.val; omega
  | ⟨1, _⟩ => show win0_3.index t (1 : Fin 2) * 65536 + 1 * l.val = t.val * 65536 + l.val; omega

/-- The lane at column `l` of point `t`'s first input block is lane `65536·t + l` of the first argument. -/
theorem colLane0 (c : Dev nD) (t : Fin cfg0.N) (l : Fin 65536) :
    colLane (iblk m c 0 t) l = lane (argA m c) (colOf t l) := by
  funext k
  show V m c main_v0 (((cfg0.win 0).blk t).view.emb (ix2 k l)) = _
  rw [emb0, V_v0_apply]
/-- And of the second input block, of the second argument. -/
theorem colLane1 (c : Dev nD) (t : Fin cfg0.N) (l : Fin 65536) :
    colLane (iblk m c 1 t) l = lane (argB m c) (colOf t l) := by
  funext k
  show V m c main_v1 (((cfg0.win 1).blk t).view.emb (ix2 k l)) = _
  rw [emb1, V_v1_apply]

/-! ## What a point writes back -/

/-- Point `t` writes back block `t` of the differences, lanes along the columns. -/
theorem flushed2_eq (c : Dev nD) (t : Fin cfg0.N) :
    (dats m 0 c).flushed 2 t = ((cfg0.win 2).blk t).view.read (Elt Ideal) (diffCols (argA m c) (argB m c)) := by
  show (cfg0.win 2).cut (grid0.coords t) ((dats m 0 c).after 2 t) = _
  rw [after0_2]
  funext j
  obtain ⟨k, l, rfl⟩ : ∃ (k : Fin 4) (l : Fin 65536), j = ix2 k l := ⟨j 0, j 1, eq_ix2 j⟩
  show out0_2 (iblk m c 0 t) (iblk m c 1 t) (ix2 k l) = diffCols (argA m c) (argB m c) (((cfg0.win 2).blk t).view.emb (ix2 k l))
  rw [emb2]
  refine (congrFun (out2_eq (iblk m c 0 t) (iblk m c 1 t)) (ix2 k l)).trans ?_
  show diffAt (colLane (iblk m c 0 t) l) (colLane (iblk m c 1 t) l) k = diffAt (lane (argA m c) (colOf t l)) (lane (argB m c) (colOf t l)) k
  rw [colLane0, colLane1]

/-- And block `t` of the final borrows. -/
theorem flushed3_eq (c : Dev nD) (t : Fin cfg0.N) :
    (dats m 0 c).flushed 3 t = ((cfg0.win 3).blk t).view.read (Elt Ideal) (borrowRow (argA m c) (argB m c)) := by
  show (cfg0.win 3).cut (grid0.coords t) ((dats m 0 c).after 3 t) = _
  rw [after0_3]
  funext j
  obtain ⟨z, l, rfl⟩ : ∃ (z : Fin 1) (l : Fin 65536), j = ix2 z l := ⟨j 0, j 1, eq_ix2 j⟩
  show out0_3 (iblk m c 0 t) (iblk m c 1 t) (ix2 z l) = borrowRow (argA m c) (argB m c) (((cfg0.win 3).blk t).view.emb (ix2 z l))
  rw [emb3]
  refine (congrFun (out3_eq (iblk m c 0 t) (iblk m c 1 t)) (ix2 z l)).trans ?_
  show borrowOut (colLane (iblk m c 0 t) l) (colLane (iblk m c 1 t) l) = borrowOut (lane (argA m c) (colOf t l)) (lane (argB m c) (colOf t l))
  rw [colLane0, colLane1]

/-! ## The blocks tile the arrays -/

/-- An index is in point `t`'s difference block iff each coordinate is in the block's range on its axis. -/
theorem mem_blk2 (t : Fin cfg0.N) (i : S4x8388608.Idx) :
    i ∈ ((cfg0.win 2).blk t).view.set ↔ ∀ a : Fin 2, win0_2.index t a * S4x65536.size a ≤ (i a).val ∧ (i a).val < win0_2.index t a * S4x65536.size a + S4x65536.size a := by
  show i ∈ ((View.whole main_v2_0).slice (win0_2.rect t)).set ↔ _
  rw [View.set_slice_whole, Rect.mem_set_unit]
  exact Iff.rfl
theorem mem_blk3 (t : Fin cfg0.N) (i : S1x8388608.Idx) :
    i ∈ ((cfg0.win 3).blk t).view.set ↔ ∀ a : Fin 2, win0_3.index t a * S1x65536.size a ≤ (i a).val ∧ (i a).val < win0_3.index t a * S1x65536.size a + S1x65536.size a := by
  show i ∈ ((View.whole main_v2_1).slice (win0_3.rect t)).set ↔ _
  rw [View.set_slice_whole, Rect.mem_set_unit]
  exact Iff.rfl

/-- The point holding column `n`. -/
def pointOf (n : Nat) (hn : n < 8388608) : Fin cfg0.N := ⟨n / 65536, by rw [show cfg0.N = 128 from N_0]; omega⟩

theorem cover2 (i : S4x8388608.Idx) :
    ∃ t : Fin cfg0.N, (cfg0.win 2).flush t = true ∧ i ∈ ((cfg0.win 2).blk t).view.set := by
  have hi0 : (i 0).val < 4 := (i 0).isLt
  have hi1 : (i 1).val < 8388608 := (i 1).isLt
  refine ⟨pointOf (i 1).val hi1, flush0_2 _, ?_⟩
  rw [mem_blk2]
  obtain ⟨-, -, -, -, e0, e1, -⟩ := idx_facts (pointOf (i 1).val hi1)
  have ht : (pointOf (i 1).val hi1).val = (i 1).val / 65536 := rfl
  intro a
  match a with
  | ⟨0, _⟩ => show win0_2.index _ (0 : Fin 2) * 4 ≤ (i 0).val ∧ (i 0).val < win0_2.index _ (0 : Fin 2) * 4 + 4; omega
  | ⟨1, _⟩ => show win0_2.index _ (1 : Fin 2) * 65536 ≤ (i 1).val ∧ (i 1).val < win0_2.index _ (1 : Fin 2) * 65536 + 65536; omega

theorem cover3 (i : S1x8388608.Idx) :
    ∃ t : Fin cfg0.N, (cfg0.win 3).flush t = true ∧ i ∈ ((cfg0.win 3).blk t).view.set := by
  have hi0 : (i 0).val < 1 := (i 0).isLt
  have hi1 : (i 1).val < 8388608 := (i 1).isLt
  refine ⟨pointOf (i 1).val hi1, flush0_3 _, ?_⟩
  rw [mem_blk3]
  obtain ⟨-, -, -, -, -, -, e0, e1⟩ := idx_facts (pointOf (i 1).val hi1)
  have ht : (pointOf (i 1).val hi1).val = (i 1).val / 65536 := rfl
  intro a
  match a with
  | ⟨0, _⟩ => show win0_3.index _ (0 : Fin 2) * 1 ≤ (i 0).val ∧ (i 0).val < win0_3.index _ (0 : Fin 2) * 1 + 1; omega
  | ⟨1, _⟩ => show win0_3.index _ (1 : Fin 2) * 65536 ≤ (i 1).val ∧ (i 1).val < win0_3.index _ (1 : Fin 2) * 65536 + 65536; omega

/-! ## The two arrays after the run -/

/-- The `[4, N]` output ends holding every lane's difference bits, lanes along the columns. -/
theorem final2 (c : Dev nD) : (dats m 0 c).arrAt 2 cfg0.N = diffCols (argA m c) (argB m c) :=
  (dats m 0 c).arrAt_eq_of_cover 2 _ (fun t _ => flushed2_eq m c t) cover2

/-- The `[1, N]` output ends holding every lane's final borrow. -/
theorem final3 (c : Dev nD) : (dats m 0 c).arrAt 3 cfg0.N = borrowRow (argA m c) (argB m c) :=
  (dats m 0 c).arrAt_eq_of_cover 3 _ (fun t _ => flushed3_eq m c t) cover3

end Cert.KernelIdeal.ArrayValue

end
-- ==== Proof.LibRowColumn.lean ====
/-
  A row recast as a column.

  A `[1, a]` array cast to `[a, 1]` keeps its row-major order, so the column's entry at `(i, u)` is the row's entry at
  `(z, i)`, whatever the two unit coordinates `u` and `z` are called (each can only be `0`). This is how a reshape of a
  `(1, N)` result into an `(N, 1)` column reads on the host.
-/
import Idealize.ShloMosaic.Lib.Pipeline.Value
import Idealize.ShloMosaic.Lib.ValueIdx

noncomputable section

namespace Cert.LibRowColumn

open Idealize.ShloMosaic Idealize.ShloMosaic.ValueIdx

variable {α : Type}

/-- A `[1, a]` row cast to the `[a, 1]` column reads, at `(i, u)`, the row at `(z, i)`. -/
theorem shapeCast_1a_a1_apply {a : ℕ} (x : (⟨2, ![1, a]⟩ : Shape).Idx → α)
    (h : (⟨2, ![1, a]⟩ : Shape).ShapeCasts ⟨2, ![a, 1]⟩) (i : Fin a) (u z : Fin 1) :
    shapeCast ⟨2, ![a, 1]⟩ x h (ix2 i u) = x (ix2 z i) :=
  shapeCast_apply x h _ _ (by
    have hu : u.val = 0 := by omega
    have hz : z.val = 0 := by omega
    rw [Shape.rowMajor_val_two, Shape.rowMajor_val_two]
    show z.val * a + i.val = i.val * 1 + u.val
    rw [hu, hz, Nat.zero_mul, Nat.zero_add, Nat.mul_one, Nat.add_zero])

/-- The same for a column recast as a row: a `[a, 1]` column cast to `[1, a]` reads, at `(z, i)`, the column at `(i, u)`. -/
theorem shapeCast_a1_1a_apply {a : ℕ} (x : (⟨2, ![a, 1]⟩ : Shape).Idx → α)
    (h : (⟨2, ![a, 1]⟩ : Shape).ShapeCasts ⟨2, ![1, a]⟩) (i : Fin a) (u z : Fin 1) :
    shapeCast ⟨2, ![1, a]⟩ x h (ix2 z i) = x (ix2 i u) :=
  shapeCast_apply x h _ _ (by
    have hu : u.val = 0 := by omega
    have hz : z.val = 0 := by omega
    rw [Shape.rowMajor_val_two, Shape.rowMajor_val_two]
    show i.val * 1 + u.val = z.val * a + i.val
    rw [hu, hz, Nat.zero_mul, Nat.zero_add, Nat.mul_one, Nat.add_zero])

end Cert.LibRowColumn

end
-- ==== Proof.KernelTail.lean ====
/-
  The kernel's two results.

  After the region the host transposes the `[4, N]` differences back to `[N, 4]` and recasts the `[1, N]` borrow row as
  an `[N, 1]` column. The transpose of "bit `k` of lane `n` at `(k, n)`" is "bit `k` of lane `n` at `(n, k)`", and a row
  recast as a column keeps its order; so the two results are every lane's difference, lanes along the rows, and every
  lane's final borrow as a column — of the argument arrays as launched, which the run leaves unchanged.
-/
import proofs.«129038_j43860206027272_2_alg».proof.Proof.KernelArray
import proofs.«129038_j43860206027272_2_alg».proof.Proof.LibRowColumn
import Idealize.ShloMosaic.Lib.StableHlo.Run

set_option maxRecDepth 16384

noncomputable section

namespace Cert.KernelIdeal.TailValue

open Idealize.ShloMosaic Idealize.ShloMosaic.TcCoe Idealize.ShloMosaic.ValueIdx
open Idealize.SL.Sem
open Cert.KernelIdeal Cert.KernelIdeal.Gen Cert.KernelIdeal.ArrayValue Cert.Subtractor Cert.LibRowColumn

variable (m : (ℓ : Loc nD τ sig) → Buf (Elt Ideal) ℓ) (ρ : Dev nD → PrngReg)

/-- What the lines after the region find in the region's two output arrays. -/
theorem found2 (c : Dev nD) :
    Pipeline.withArrays (cfgs 0).spec c (V0 m c) (fun w => (dats m 0 c).arrAt w (cfgs 0).N) (Proc.devRef .tc main_v2_0)
      = diffCols (argA m c) (argB m c) :=
  (Pipeline.withArrays_arr spec0 launch0.win.arr_inj c _ _ 2).trans (final2 m c)
theorem found3 (c : Dev nD) :
    Pipeline.withArrays (cfgs 0).spec c (V0 m c) (fun w => (dats m 0 c).arrAt w (cfgs 0).N) (Proc.devRef .tc main_v2_1)
      = borrowRow (argA m c) (argB m c) :=
  (Pipeline.withArrays_arr spec0 launch0.win.arr_inj c _ _ 3).trans (final3 m c)

/-- The first result: the differences transposed back, lanes along the rows. -/
theorem tail_v3 (c : Dev nD) :
    (Pipeline.afterTail₀ cfgs (dats m) 0 (V0 m) [hostOps1] c main_v3 : S8388608x4.Idx → EReal)
      = diffRows (argA m c) (argB m c) := by
  unfold Pipeline.afterTail₀
  show StableHlo.after hostOps1 _ (Proc.devRef .tc main_v3) = _
  after_results
  rw [found2]
  funext i
  obtain ⟨n, k, rfl⟩ : ∃ (n : Fin 8388608) (k : Fin 4), i = ix2 n k := ⟨i 0, i 1, eq_ix2 i⟩
  exact transpose_ix2_apply _ _ n k

/-- The second result: the borrow row recast as a column. -/
theorem tail_v4 (c : Dev nD) :
    (Pipeline.afterTail₀ cfgs (dats m) 0 (V0 m) [hostOps1] c main_v4 : S8388608x1.Idx → EReal)
      = borrowCol (argA m c) (argB m c) := by
  unfold Pipeline.afterTail₀
  show StableHlo.after hostOps1 _ (Proc.devRef .tc main_v4) = _
  after_results
  rw [found3]
  funext i
  obtain ⟨n, u, rfl⟩ : ∃ (n : Fin 8388608) (u : Fin 1), i = ix2 n u := ⟨i 0, i 1, eq_ix2 i⟩
  exact shapeCast_1a_a1_apply _ _ n u (0 : Fin 1)

/-- The kernel's run, read: it terminates with the two results at the subtractor's functions of the arguments, and
    the arguments as launched. -/
theorem run : θ_run defs (onTc (τ := τ) (main (F := Ideal))) ⟨m, fun _ => 0, ρ⟩ (fun r => ∀ c : Dev nD,
      r.2.mem ((c.tc : Thread nD τ).loc main_v3) = diffRows (argA m c) (argB m c)
      ∧ r.2.mem ((c.tc : Thread nD τ).loc main_v4) = borrowCol (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (tail_v3 m c),
      ((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.TailValue

end
-- ==== Proof.RefRead.lean ====
/-
  The reference, read entry by entry.

  The reference cuts the four columns of each `[N, 4]` argument into `[N, 1]` columns, runs the gate chain on whole
  columns — bit 3 first, over a zero column as the first borrow — and lays the four difference columns side by side.
  Every operation is entry-wise, a cut column at row `n` is the argument at `(n, k)`, and a literal spread over a column
  is the literal; so each named column of the run is, at row `n`, the gate formula of lane `n`: the three carried borrows,
  the final borrow, and the four `xor`s the differences start from. Column `k` of the concatenation at row `n` is piece
  `k` at row `n`.
-/
import proofs.«129038_j43860206027272_2_alg».proof.Proof.Gen.ReferenceIdeal.Run
import proofs.«129038_j43860206027272_2_alg».proof.Proof.Spec
import Idealize.ShloMosaic.Lib.Pipeline.Value
import Idealize.ShloMosaic.Lib.ValueIdx
import Idealize.ShloMosaic.Lib.ValueLayout

noncomputable section

namespace Cert.ReferenceIdeal.RefValue

open Idealize.ShloMosaic Idealize.ShloMosaic.ValueIdx
open Cert.ReferenceIdeal Cert.ReferenceIdeal.Value Cert.Subtractor

/-! ## Layout -/

/-- Column `o` of an `[N, 4]` array, cut out as an `[N, 1]` column, reads at row `n` the array at `(n, o)`. -/
theorem col_eq (o : Nat) (X : S8388608x4.Idx → EReal) (h : S8388608x4.Slices ![0, o] S8388608x1)
    (k : Fin 4) (hk : k.val = o) :
    extractStridedSlice S8388608x1 ![0, o] X h = fun i => lane X (i 0) k := by
  funext i
  obtain ⟨n, z, rfl⟩ : ∃ (n : Fin 8388608) (z : Fin 1), i = ix2 n z := ⟨i 0, i 1, eq_ix2 i⟩
  exact slice2_axis1_apply o X h n z k (by have := z.isLt; omega)

/-- Four `[N, 1]` columns laid side by side: column `k` of the result at row `n` is piece `k` at row `n`. -/
theorem concat4_eq (x0 x1 x2 x3 : S8388608x1.Idx → EReal)
    (h : Shape.Concatenates [S8388608x1, S8388608x1, S8388608x1, S8388608x1] S8388608x4 1)
    (G : S8388608x4.Idx → EReal)
    (h0 : ∀ n : Fin 8388608, x0 (ix2 n (0 : Fin 1)) = G (ix2 n (0 : Fin 4)))
    (h1 : ∀ n : Fin 8388608, x1 (ix2 n (0 : Fin 1)) = G (ix2 n (1 : Fin 4)))
    (h2 : ∀ n : Fin 8388608, x2 (ix2 n (0 : Fin 1)) = G (ix2 n (2 : Fin 4)))
    (h3 : ∀ n : Fin 8388608, x3 (ix2 n (0 : Fin 1)) = G (ix2 n (3 : Fin 4))) :
    concatenate S8388608x4 1 [⟨S8388608x1, x0⟩, ⟨S8388608x1, x1⟩, ⟨S8388608x1, x2⟩, ⟨S8388608x1, x3⟩] h = G := by
  funext i
  obtain ⟨n, k, rfl⟩ : ∃ (n : Fin 8388608) (k : Fin 4), i = ix2 n k := ⟨i 0, i 1, eq_ix2 i⟩
  have hi : ∀ b : Fin S8388608x1.rank, b.cast (rfl : S8388608x1.rank = S8388608x4.rank) ≠ (1 : Fin 2) →
      ((ix2 n (0 : Fin 1) : S8388608x1.Idx) b).val = ((ix2 n k : S8388608x4.Idx) (b.cast rfl)).val := fun b hb => by
    match b with
    | ⟨0, _⟩ => rfl
    | ⟨1, _⟩ => exact absurd rfl hb
  match k with
  | ⟨0, _⟩ =>
    exact (concatenate_apply_piece (t := S8388608x4) (1 : Fin 2)
      [⟨S8388608x1, x0⟩, ⟨S8388608x1, x1⟩, ⟨S8388608x1, x2⟩, ⟨S8388608x1, x3⟩] h _ 0 (by simp) S8388608x1 x0 rfl rfl 0 rfl
      (ix2 n (0 : Fin 1)) hi rfl).trans (h0 n)
  | ⟨1, _⟩ =>
    exact (concatenate_apply_piece (t := S8388608x4) (1 : Fin 2)
      [⟨S8388608x1, x0⟩, ⟨S8388608x1, x1⟩, ⟨S8388608x1, x2⟩, ⟨S8388608x1, x3⟩] h _ 1 (by simp) S8388608x1 x1 rfl rfl 1 rfl
      (ix2 n (0 : Fin 1)) hi rfl).trans (h1 n)
  | ⟨2, _⟩ =>
    exact (concatenate_apply_piece (t := S8388608x4) (1 : Fin 2)
      [⟨S8388608x1, x0⟩, ⟨S8388608x1, x1⟩, ⟨S8388608x1, x2⟩, ⟨S8388608x1, x3⟩] h _ 2 (by simp) S8388608x1 x2 rfl rfl 2 rfl
      (ix2 n (0 : Fin 1)) hi rfl).trans (h2 n)
  | ⟨3, _⟩ =>
    exact (concatenate_apply_piece (t := S8388608x4) (1 : Fin 2)
      [⟨S8388608x1, x0⟩, ⟨S8388608x1, x1⟩, ⟨S8388608x1, x2⟩, ⟨S8388608x1, x3⟩] h _ 3 (by simp) S8388608x1 x3 rfl rfl 3 rfl
      (ix2 n (0 : Fin 1)) hi rfl).trans (h3 n)

/-! ## The run's named columns -/

variable (V0 : Valuation τ sig (Elt Ideal))

/-- The first argument's contents, as an `[N, 4]` array of extended reals. -/
abbrev argA : S8388608x4.Idx → EReal := V0 (Proc.devRef .tc main_arg0)
/-- The second argument's. -/
abbrev argB : S8388608x4.Idx → EReal := V0 (Proc.devRef .tc main_arg1)

/-- The first borrow: a zero column. -/
theorem v1_eq : (res_main_v1 V0 : S8388608x1.Idx → EReal) = fun _ => zeroE := rfl

/-- The eight cut columns: bit `k` of each operand, lane by lane. -/
theorem v2_eq : (res_main_v2 V0 : S8388608x1.Idx → EReal) = fun i => lane (argA V0) (i 0) 3 := col_eq 3 _ _ 3 rfl
theorem v3_eq : (res_main_v3 V0 : S8388608x1.Idx → EReal) = fun i => lane (argB V0) (i 0) 3 := col_eq 3 _ _ 3 rfl
theorem v25_eq : (res_main_v25 V0 : S8388608x1.Idx → EReal) = fun i => lane (argA V0) (i 0) 2 := col_eq 2 _ _ 2 rfl
theorem v26_eq : (res_main_v26 V0 : S8388608x1.Idx → EReal) = fun i => lane (argB V0) (i 0) 2 := col_eq 2 _ _ 2 rfl
theorem v48_eq : (res_main_v48 V0 : S8388608x1.Idx → EReal) = fun i => lane (argA V0) (i 0) 1 := col_eq 1 _ _ 1 rfl
theorem v49_eq : (res_main_v49 V0 : S8388608x1.Idx → EReal) = fun i => lane (argB V0) (i 0) 1 := col_eq 1 _ _ 1 rfl
theorem v71_eq : (res_main_v71 V0 : S8388608x1.Idx → EReal) = fun i => lane (argA V0) (i 0) 0 := col_eq 0 _ _ 0 rfl
theorem v72_eq : (res_main_v72 V0 : S8388608x1.Idx → EReal) = fun i => lane (argB V0) (i 0) 0 := col_eq 0 _ _ 0 rfl

/-- `xor` of the operands' bit 3. -/
theorem v8_eq : (res_main_v8 V0 : S8388608x1.Idx → EReal)
    = fun i => gxor (lane (argA V0) (i 0) 3) (lane (argB V0) (i 0) 3) := by
  unfold res_main_v8; rw [v2_eq, v3_eq]; rfl

/-- The borrow out of bit 3. -/
theorem v24_eq : (res_main_v24 V0 : S8388608x1.Idx → EReal)
    = fun i => borrow2 (lane (argA V0) (i 0)) (lane (argB V0) (i 0)) := by
  unfold res_main_v24 res_main_v21 res_main_v18 res_main_v17 res_main_v16 res_main_v15
  rw [v1_eq, v2_eq, v3_eq]; rfl

/-- `xor` of the operands' bit 2. -/
theorem v31_eq : (res_main_v31 V0 : S8388608x1.Idx → EReal)
    = fun i => gxor (lane (argA V0) (i 0) 2) (lane (argB V0) (i 0) 2) := by
  unfold res_main_v31; rw [v25_eq, v26_eq]; rfl

/-- The borrow out of bit 2. -/
theorem v47_eq : (res_main_v47 V0 : S8388608x1.Idx → EReal)
    = fun i => borrow1 (lane (argA V0) (i 0)) (lane (argB V0) (i 0)) := by
  unfold res_main_v47 res_main_v44 res_main_v41 res_main_v40 res_main_v39 res_main_v38
  rw [v24_eq, v25_eq, v26_eq]; rfl

/-- `xor` of the operands' bit 1. -/
theorem v54_eq : (res_main_v54 V0 : S8388608x1.Idx → EReal)
    = fun i => gxor (lane (argA V0) (i 0) 1) (lane (argB V0) (i 0) 1) := by
  unfold res_main_v54; rw [v48_eq, v49_eq]; rfl

/-- The borrow out of bit 1. -/
theorem v70_eq : (res_main_v70 V0 : S8388608x1.Idx → EReal)
    = fun i => borrow0 (lane (argA V0) (i 0)) (lane (argB V0) (i 0)) := by
  unfold res_main_v70 res_main_v67 res_main_v64 res_main_v63 res_main_v62 res_main_v61
  rw [v47_eq, v48_eq, v49_eq]; rfl

/-- `xor` of the operands' bit 0. -/
theorem v77_eq : (res_main_v77 V0 : S8388608x1.Idx → EReal)
    = fun i => gxor (lane (argA V0) (i 0) 0) (lane (argB V0) (i 0) 0) := by
  unfold res_main_v77; rw [v71_eq, v72_eq]; rfl

/-- The pieces of the final borrow: the last `or`'s two operands. -/
theorem v90_eq : (res_main_v90 V0 : S8388608x1.Idx → EReal)
    = fun i => gor ((oneE - lane (argA V0) (i 0) 0) * lane (argB V0) (i 0) 0)
        ((oneE - lane (argA V0) (i 0) 0) * borrow0 (lane (argA V0) (i 0)) (lane (argB V0) (i 0))) := by
  unfold res_main_v90 res_main_v86 res_main_v85 res_main_v84
  rw [v70_eq, v71_eq, v72_eq]; rfl
theorem v87_eq : (res_main_v87 V0 : S8388608x1.Idx → EReal)
    = fun i => lane (argB V0) (i 0) 0 * borrow0 (lane (argA V0) (i 0)) (lane (argB V0) (i 0)) := by
  unfold res_main_v87
  rw [v70_eq, v72_eq]; rfl

end Cert.ReferenceIdeal.RefValue

end
-- ==== Proof.Claims.lean ====
/-
  The three frames and the two value claims.

  The kernel's frames are its generated frame runs. The reference has no kernel: its frame is its generated run with
  the results dropped. The idealization rewrote nothing, so `preserves` has nothing to state. For `algebraic`: the
  kernel's run ends with its two results at the subtractor's functions of its arguments (every lane's four difference
  bits along the rows; every lane's final borrow as a column), and the reference's run ends with the same two
  functions of ITS arguments — the four difference columns laid side by side, each the `xor` of a bit's `xor` with the
  borrow entering that bit, and the last `or` of the borrow chain — and the two programs' arguments agree.
-/
import proofs.«129038_j43860206027272_2_alg».proof.Defs
import proofs.«129038_j43860206027272_2_alg».proof.Proof.Gen.Pre_finite_inputs
import proofs.«129038_j43860206027272_2_alg».proof.Proof.Gen.Kernel.Frame
import proofs.«129038_j43860206027272_2_alg».proof.Proof.Gen.KernelIdeal.Frame
import proofs.«129038_j43860206027272_2_alg».proof.Proof.KernelTail
import proofs.«129038_j43860206027272_2_alg».proof.Proof.RefRead

noncomputable section

namespace Cert.Proof.Claims

open Idealize.ShloMosaic Idealize.ShloMosaic.TcCoe Idealize.ShloMosaic.ValueIdx Idealize.SL.Sem
open Cert.Subtractor

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

open Cert.ReferenceIdeal Cert.ReferenceIdeal.Value Cert.ReferenceIdeal.RefValue in
/-- The reference's first result: the four difference columns side by side are every lane's difference. -/
theorem ref_diff (V0 : Valuation τ sig (Elt Ideal)) (X0 X1 X2 X3 : S8388608x1.Idx → EReal)
    (h : Shape.Concatenates [S8388608x1, S8388608x1, S8388608x1, S8388608x1] S8388608x4 1)
    (e0 : X0 = fun i => gxor (res_main_v77 V0 i) (res_main_v70 V0 i))
    (e1 : X1 = fun i => gxor (res_main_v54 V0 i) (res_main_v47 V0 i))
    (e2 : X2 = fun i => gxor (res_main_v31 V0 i) (res_main_v24 V0 i))
    (e3 : X3 = fun i => gxor (res_main_v8 V0 i) (res_main_v1 V0 i)) :
    concatenate S8388608x4 1 [⟨S8388608x1, X0⟩, ⟨S8388608x1, X1⟩, ⟨S8388608x1, X2⟩, ⟨S8388608x1, X3⟩] h
      = diffRows (argA V0) (argB V0) := by
  subst e0 e1 e2 e3
  refine concat4_eq _ _ _ _ h _ (fun n => ?_) (fun n => ?_) (fun n => ?_) (fun n => ?_)
  · rw [v77_eq, v70_eq]; rfl
  · rw [v54_eq, v47_eq]; rfl
  · rw [v31_eq, v24_eq]; rfl
  · rw [v8_eq, v1_eq]; rfl

open Cert.ReferenceIdeal Cert.ReferenceIdeal.Value Cert.ReferenceIdeal.RefValue in
/-- The reference's second result: the last `or` of the chain is every lane's final borrow. -/
theorem ref_borrow (V0 : Valuation τ sig (Elt Ideal)) :
    (fun i => gor (res_main_v90 V0 i) (res_main_v87 V0 i) : S8388608x1.Idx → EReal)
      = borrowCol (argA V0) (argB V0) := by
  rw [v90_eq, v87_eq]; rfl

theorem algebraic : Cert.algebraic_KernelIdeal_ReferenceIdeal := by
  intro m ρ m' ρ' _ hagree
  refine ⟨_, _, Cert.KernelIdeal.TailValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (ref_diff (StableHlo.launchContents m' c) _ _ _ _ _ rfl rfl rfl rfl).trans ?_
    exact congrArg₂ diffRows (hagree c).1 (hagree c).2
  · refine (ref_borrow (StableHlo.launchContents m' c)).trans ?_
    exact congrArg₂ borrowCol (hagree c).1 (hagree c).2

end Cert.Proof.Claims

end
-- ==== Proof.lean ====
/-
  A four-bit ripple-borrow subtractor on 8388608 lanes, against its plain array form.

  Both programs compute, for every lane, the four difference bits and the final borrow by the same chain of polynomial
  gates (`xor x y = x + y - 2·x·y`, `or x y = x + y - x·y`, `and`, `not`), bit 3 first, from a zero borrow. The kernel
  transposes the `[N, 4]` arguments so that lanes run along the columns, handles 65536 columns per grid point, and
  transposes the differences back and recasts the borrow row as a column; the reference works on whole `[N, 1]`
  columns and lays the four difference columns side by side. On the extended reals the two spell every entry of both
  results as the same expression of the same argument entries, so the results are equal with no law of arithmetic and
  whatever the arguments hold. The pieces: Proof/Spec.lean (the gates and the two results as functions of the
  arguments), Proof/KernelBlock.lean (one block after the body), Proof/KernelArray.lean (the blocks tile the arrays),
  Proof/KernelTail.lean (the host lines after the region, and the kernel's run read), Proof/RefRead.lean (the
  reference's columns read entry by entry), Proof/Claims.lean (the five claims).
-/
import proofs.«129038_j43860206027272_2_alg».proof.Defs
import proofs.«129038_j43860206027272_2_alg».proof.Proof.Gen.Kernel
import proofs.«129038_j43860206027272_2_alg».proof.Proof.Gen.Kernel.Skeleton
import proofs.«129038_j43860206027272_2_alg».proof.Proof.Gen.Kernel.Launch
import proofs.«129038_j43860206027272_2_alg».proof.Proof.Gen.Kernel.Points
import proofs.«129038_j43860206027272_2_alg».proof.Proof.Gen.Kernel.Frame
import proofs.«129038_j43860206027272_2_alg».proof.Proof.Gen.KernelIdeal
import proofs.«129038_j43860206027272_2_alg».proof.Proof.Gen.KernelIdeal.Skeleton
import proofs.«129038_j43860206027272_2_alg».proof.Proof.Gen.KernelIdeal.Launch
import proofs.«129038_j43860206027272_2_alg».proof.Proof.Gen.KernelIdeal.Points
import proofs.«129038_j43860206027272_2_alg».proof.Proof.Gen.KernelIdeal.Frame
import proofs.«129038_j43860206027272_2_alg».proof.Proof.Gen.ReferenceIdeal
import proofs.«129038_j43860206027272_2_alg».proof.Proof.Gen.ReferenceIdeal.Run
import proofs.«129038_j43860206027272_2_alg».proof.Proof.Gen.Pre_finite_inputs
import proofs.«129038_j43860206027272_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
